-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64x64 : Shape := ⟨2, ![64, 64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S128x128 .f32) (main_arg8 : FVec F S128x64 .f32) (main_arg9 : FVec F S64x64 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  main_v48

def fn_part1 {F : FTy → Type} [FloatOps F] (main_arg4 : FVec F S128x128 .f32) (main_arg5 : FVec F S64x128 .f32) (main_arg6 : FVec F S128 .f32) (main_arg7 : FVec F S128x128 .f32) (main_arg8 : FVec F S128x64 .f32) (main_arg9 : FVec F S64x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S64x128 .f32 := Host.absf main_arg5
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S50000x64 .f32) (main_arg1 : FVec F S800000x64 .f32) (main_arg2 : FVec F S64x128 .f32) (main_arg3 : FVec F S128 .f32) (main_arg4 : FVec F S128x128 .f32) (main_arg5 : FVec F S64x128 .f32) (main_arg6 : FVec F S128 .f32) (main_arg7 : FVec F S128x128 .f32) (main_arg8 : FVec F S128x64 .f32) (main_arg9 : FVec F S64x64 .f32) (main_arg10 : IVec S800000 32) (main_arg11 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S50000x64 : Shape := ⟨2, ![50000, 64]⟩
abbrev S800000x64 : Shape := ⟨2, ![800000, 64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64x64 : Shape := ⟨2, ![64, 64]⟩
abbrev S800000 : Shape := ⟨1, ![800000]⟩
abbrev S_ : Shape := ⟨0, ![]⟩
abbrev S800000x1 : Shape := ⟨2, ![800000, 1]⟩
abbrev S1x128 : Shape := ⟨2, ![1, 128]⟩
abbrev S16000x64 : Shape := ⟨2, ![16000, 64]⟩
abbrev S16000x128 : Shape := ⟨2, ![16000, 128]⟩

abbrev nBuf : Space → Nat
  | .hbm => 47
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64x64, .f32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x64, .bf16⟩
  | .hbm, ⟨31, _⟩ => ⟨S800000x64, .bf16⟩
  | .hbm, ⟨32, _⟩ => ⟨S800000x64, .bf16⟩
  | .hbm, ⟨33, _⟩ => ⟨S64x128, .bf16⟩
  | .hbm, ⟨34, _⟩ => ⟨S128x128, .bf16⟩
  | .hbm, ⟨35, _⟩ => ⟨S64x128, .bf16⟩
  | .hbm, ⟨36, _⟩ => ⟨S128x128, .bf16⟩
  | .hbm, ⟨37, _⟩ => ⟨S128x64, .bf16⟩
  | .hbm, ⟨38, _⟩ => ⟨S64x64, .bf16⟩
  | .hbm, ⟨39, _⟩ => ⟨S1x128, .f32⟩
  | .hbm, ⟨40, _⟩ => ⟨S1x128, .f32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x64, .f32⟩
  | .local _ .vmem, ⟨0, _⟩ => ⟨S16000x64, .bf16⟩
  | .local _ .vmem, ⟨1, _⟩ => ⟨S16000x64, .bf16⟩
  | .local _ .vmem, ⟨2, _⟩ => ⟨S16000x64, .bf16⟩
  | .local _ .vmem, ⟨3, _⟩ => ⟨S16000x64, .bf16⟩
  | .local _ .vmem, ⟨4, _⟩ => ⟨S16000x64, .bf16⟩
  | .local _ .vmem, ⟨5, _⟩ => ⟨S16000x64, .bf16⟩
  | .local _ .vmem, ⟨6, _⟩ => ⟨S64x128, .bf16⟩
  | .local _ .vmem, ⟨7, _⟩ => ⟨S1x128, .f32⟩
  | .local _ .vmem, ⟨8, _⟩ => ⟨S128x128, .bf16⟩
  | .local _ .vmem, ⟨9, _⟩ => ⟨S64x128, .bf16⟩
  | .local _ .vmem, ⟨10, _⟩ => ⟨S1x128, .f32⟩
  | .local _ .vmem, ⟨11, _⟩ => ⟨S128x128, .bf16⟩
  | .local _ .vmem, ⟨12, _⟩ => ⟨S128x64, .bf16⟩
  | .local _ .vmem, ⟨13, _⟩ => ⟨S64x64, .bf16⟩
  | .local _ .vmem, ⟨14, _⟩ => ⟨S16000x64, .f32⟩
  | .local _ .vmem, ⟨15, _⟩ => ⟨S16000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  shapeCasts_S128_S1x128 : S128.ShapeCasts S1x128
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S16000x128 : S1x128.Broadcasts S16000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  dot_S16000x64_S64x64_S16000x64_1_0_0_1_n_n_wf : DotDims.WF S16000x64 S64x64 S16000x64 [1] [0] [0] [1] [] []
  dot_S16000x64_S64x128_S16000x128_1_0_0_1_n_n_wf : DotDims.WF S16000x64 S64x128 S16000x128 [1] [0] [0] [1] [] []
  dot_S16000x128_S128x128_S16000x128_1_0_0_1_n_n_wf : DotDims.WF S16000x128 S128x128 S16000x128 [1] [0] [0] [1] [] []
  dot_S16000x128_S128x64_S16000x64_1_0_0_1_n_n_wf : DotDims.WF S16000x128 S128x64 S16000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S800000x64.size a
  hwx0_0 : ∀ i : grid0.Coords, EltTy.bits .bf16 = 32 ∨ (Rect.block (s := S800000x64) S16000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S800000x64.size a
  hwx0_1 : ∀ i : grid0.Coords, EltTy.bits .bf16 = 32 ∨ (Rect.block (s := S800000x64) S16000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x64.size a ≤ S800000x64.size a
  hwx0_2 : ∀ i : grid0.Coords, EltTy.bits .bf16 = 32 ∨ (Rect.block (s := S800000x64) S16000x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .bf16 = 32 ∨ (Rect.block (s := S64x128) S64x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .bf16 = 32 ∨ (Rect.block (s := S128x128) S128x128.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .bf16 = 32 ∨ (Rect.block (s := S128x64) S128x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .bf16 = 32 ∨ (Rect.block (s := S64x64) S64x64.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16000x64.size a ≤ S800000x64.size a
  hwx0_11 : ∀ i : grid0.Coords, EltTy.bits .f32 = 32 ∨ (Rect.block (s := S800000x64) S16000x64.size (cc0_transform_11 i) (hinb0_11 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S16000x64_S64x128_S16000x128_1_0_0_1_n_n : DotDims S16000x64 S64x128 S16000x128 where
  lhsContracting := [1]
  rhsContracting := [0]
  lhsNonContracting := [0]
  rhsNonContracting := [1]
  lhsBatch := []
  rhsBatch := []
  wf := dot_S16000x64_S64x128_S16000x128_1_0_0_1_n_n_wf
def dot_S16000x128_S128x128_S16000x128_1_0_0_1_n_n : DotDims S16000x128 S128x128 S16000x128 where
  lhsContracting := [1]
  rhsContracting := [0]
  lhsNonContracting := [0]
  rhsNonContracting := [1]
  lhsBatch := []
  rhsBatch := []
  wf := dot_S16000x128_S128x128_S16000x128_1_0_0_1_n_n_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v14) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S16000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v25) S16000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64x64 : Shape := ⟨2, ![64, 64]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 63
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128x64, .f32⟩
  | .hbm, ⟨9, _⟩ => ⟨S64x64, .f32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S_, .f32⟩
  | .hbm, ⟨31, _⟩ => ⟨S800000x64, .f32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S_, .f32⟩
  | .hbm, ⟨36, _⟩ => ⟨S800000x64, .f32⟩
  | .hbm, ⟨37, _⟩ => ⟨S800000x64, .f32⟩
  | .hbm, ⟨38, _⟩ => ⟨S800000x64, .f32⟩
  | .hbm, ⟨39, _⟩ => ⟨S800000x128, .f32⟩
  | .hbm, ⟨40, _⟩ => ⟨S1x128, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S800000x128, .f32⟩
  | .hbm, ⟨45, _⟩ => ⟨S800000x128, .f32⟩
  | .hbm, ⟨46, _⟩ => ⟨S800000x128, .f32⟩
  | .hbm, ⟨47, _⟩ => ⟨S800000x128, .f32⟩
  | .hbm, ⟨48, _⟩ => ⟨S1x128, .f32⟩
  | .hbm, ⟨49, _⟩ => ⟨S800000x128, .f32⟩
  | .hbm, ⟨50, _⟩ => ⟨S800000x128, .f32⟩
  | .hbm, ⟨51, _⟩ => ⟨S_, .f32⟩
  | .hbm, ⟨52, _⟩ => ⟨S800000x128, .f32⟩
  | .hbm, ⟨53, _⟩ => ⟨S800000x128, .f32⟩
  | .hbm, ⟨54, _⟩ => ⟨S800000x128, .f32⟩
  | .hbm, ⟨55, _⟩ => ⟨S800000x128, .f32⟩
  | .hbm, ⟨56, _⟩ => ⟨S800000x64, .f32⟩
  | .hbm, ⟨57, _⟩ => ⟨S800000x64, .f32⟩
  | .hbm, ⟨58, _⟩ => ⟨S_, .f32⟩
  | .hbm, ⟨59, _⟩ => ⟨S50000x64, .f32⟩
  | .hbm, ⟨60, _⟩ => ⟨S800000x1, .i32⟩
  | .hbm, ⟨61, _⟩ => ⟨S50000x64, .f32⟩
  | .hbm, ⟨62, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_cst : Ref sig .tc := ⟨.hbm, 51, rfl⟩
abbrev main_call1_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_4 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  dot_S800000x64_S64x128_S800000x128_1_0_0_1_n_n_wf : DotDims.WF S800000x64 S64x128 S800000x128 [1] [0] [0] [1] [] []
  dot_S800000x128_S128x128_S800000x128_1_0_0_1_n_n_wf : DotDims.WF S800000x128 S128x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x128_S800000x128_1_0_0_1_n_n : DotDims S800000x64 S64x128 S800000x128 where
  lhsContracting := [1]
  rhsContracting := [0]
  lhsNonContracting := [0]
  rhsNonContracting := [1]
  lhsBatch := []
  rhsBatch := []
  wf := dot_S800000x64_S64x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibDense.lean ====
/-
  A matrix product whose one contracted axis is the left operand's columns and the right operand's rows, accumulated
  into the zero matrix and read at an entry: the entry `(p, j)` is the sum over `k` of `lhs (p, k) * rhs (k, j)`, for
  any extents and any dimension record that lists the axes in that way (no batch axis, rows of the left and columns of
  the right kept). Then the same facts about a whole matrix seen BY ITS ROWS — a product, a bias row added to every row, a
  change of float format, a rectifier — each as an equation between functions of the row number, so that a chain of dense
  layers is rewritten from the inside out with no binder in the way. Last, the pointwise transcendentals a gated cell
  uses, read at an index.
-/
import Idealize.ShloMosaic.Lib.Pipeline.Value
import Idealize.ShloMosaic.Lib.ValueIdx
import Idealize.ShloMosaic.Lib.ValueLayout
import Idealize.ShloMosaic.PureOps.Ideal.Laws

namespace Cert.LibDense

open Idealize.ShloMosaic Idealize.ShloMosaic.ValueIdx

/-- The product of an `[M, K]` and a `[K, N]` matrix into the zero accumulator, at `(p, j)`: the sum over the shared
    axis of the products of row `p` of the left with column `j` of the right. -/
theorem matmul2d_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (p : Fin M) (j : Fin N) :
    matmul D prec lhs rhs (constant ⟨2, ![M, N]⟩ .f32 0x00000000#32) (ix2 p j)
      = ∑ k : Fin K, lhs (ix2 p k) * rhs (ix2 k j) := by
  obtain ⟨lc, rc, ln, rn, lb, rb, wf⟩ := D
  dsimp only at hlc hrc hln hrn hlb hrb
  subst hlc hrc hln hrn hlb hrb
  set D : DotDims ⟨2, ![M, K]⟩ ⟨2, ![K, N]⟩ ⟨2, ![M, N]⟩ := ⟨[1], [0], [0], [1], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 k j := funext fun a => Fin.ext (by
    match a with
    | ⟨0, _⟩ => exact (D.rhsIdx_val_of_single rfl (ix2 p j) _).trans hk
    | ⟨1, _⟩ =>
      show (D.rhsIdx (ix2 p j) _ 1).val = j.val
      unfold DotDims.rhsIdx
      rw [dif_neg (show ¬(1 : Fin (⟨2, ![K, N]⟩ : Shape).rank) ∈ D.rhsBatch from List.not_mem_nil),
        dif_pos (show (1 : Fin (⟨2, ![K, N]⟩ : Shape).rank) ∈ D.rhsNonContracting from List.mem_singleton.mpr rfl)]
      rfl)
  rw [el, er]

/-! ## A matrix by its rows -/

/-- Row `p` of a matrix, as a function of the column. -/
def rows {M N : ℕ} {α : Type} (A : (⟨2, ![M, N]⟩ : Shape).Idx → α) (p : Fin M) (j : Fin N) : α := A (ix2 p j)

/-- A `[K, J]` array read as weights from input `k` to output `j`: the array holds the weights transposed. -/
def matT {K J : ℕ} (W : (⟨2, ![K, J]⟩ : Shape).Idx → EReal) (j : Fin J) (k : Fin K) : EReal := W (ix2 k j)

/-- A `[1, J]` array read as the bias of output `j`. -/
def rowv {J : ℕ} (B : (⟨2, ![1, J]⟩ : Shape).Idx → EReal) (j : Fin J) : EReal := B (ix2 (0 : Fin 1) j)

section Rows
variable {M K N : ℕ} {φ φ₁ φ₂ : FTy}

/-- A cast of a matrix to its own shape has the same rows. -/
theorem rows_shapeCast_self {α : Type} (A : (⟨2, ![M, N]⟩ : Shape).Idx → α)
    (h : (⟨2, ![M, N]⟩ : Shape).ShapeCasts ⟨2, ![M, N]⟩) : rows (shapeCast ⟨2, ![M, N]⟩ A h) = rows A := by
  rw [shapeCast_self]

/-- A change of float format keeps every entry. -/
theorem rows_truncf {ψ : FTy} (A : FVec Ideal ⟨2, ![M, N]⟩ φ) (h : ψ.bits < φ.bits) :
    rows (truncf ψ A h : FVec Ideal ⟨2, ![M, N]⟩ ψ) = rows A := rfl

/-- The entrywise maximum with a constant. -/
theorem rows_maximumf_splat (A : FVec Ideal ⟨2, ![M, N]⟩ φ) (z : Ideal φ) :
    rows (maximumf A (broadcast ⟨2, ![M, N]⟩ z)) = fun p j => max (rows A p j) z := rfl

/-- The rows of a product into the zero accumulator: row `p` is the weighted sum of the right operand's rows. -/
theorem rows_matmul (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂) :
    rows (matmul D prec lhs rhs (constant ⟨2, ![M, N]⟩ .f32 0x00000000#32))
      = fun p j => ∑ k : Fin K, rows lhs p k * rows rhs k j :=
  funext fun p => funext fun j => matmul2d_apply D hlc hrc hln hrn hlb hrb prec lhs rhs p j

/-- One row added to every row. -/
theorem rows_addf_rowBias (A : FVec Ideal ⟨2, ![M, N]⟩ φ) (b : FVec Ideal ⟨2, ![1, N]⟩ φ)
    (hb : (⟨2, ![1, N]⟩ : Shape).Broadcasts ⟨2, ![M, N]⟩) :
    rows (addf A (broadcastTo ⟨2, ![M, N]⟩ b hb)) = fun p j => rows A p j + rows b (0 : Fin 1) j := by
  funext p j
  show A (ix2 p j) + broadcastTo ⟨2, ![M, N]⟩ b hb (ix2 p j) = _
  rw [broadcastTo_1b_ab_apply]
  rfl

end Rows

/-! ## Pointwise transcendentals at an index -/

variable {s : Shape} {φ : FTy}

theorem logistic_apply (x : FVec Ideal s φ) (i : s.Idx) : logistic x i = Ideal.logistic (x i) := rfl
theorem tanh_apply (x : FVec Ideal s φ) (i : s.Idx) : tanh x i = Ideal.tanh (x i) := rfl
theorem exp_apply (x : FVec Ideal s φ) (i : s.Idx) : exp x i = Ideal.exp (x i) := rfl
theorem log1p_apply (x : FVec Ideal s φ) (i : s.Idx) : log1p x i = Ideal.log1p (x i) := rfl
theorem absf_apply (x : FVec Ideal s φ) (i : s.Idx) : absf x i = max (x i) (-(x i)) := rfl

end Cert.LibDense
-- ==== Proof.LibRowOps.lean ====
/-
  More facts about a matrix seen by its rows, at Ideal: the pointwise operations. Each is an equation between functions
  of the row number and the column, true by unfolding, so that a chain of pointwise and dense operations is rewritten
  from the inside out with no binder in the way: the entrywise sum and product of two matrices, the entrywise product
  with a constant, a widening of the float format (which keeps every entry), the constant matrix, and tanh.
-/
import proofs.«110317_j29609504538902_1_alg».proof.Proof.LibDense

namespace Cert.LibRowOps

open Idealize.ShloMosaic Idealize.ShloMosaic.ValueIdx Cert.LibDense

variable {M N : ℕ} {φ ψ : FTy}

/-- The entrywise sum of two matrices, row by row. -/
theorem rows_addf (A B : FVec Ideal ⟨2, ![M, N]⟩ φ) :
    rows (addf A B) = fun p j => rows A p j + rows B p j := rfl

/-- The entrywise product of two matrices, row by row. -/
theorem rows_mulf (A B : FVec Ideal ⟨2, ![M, N]⟩ φ) :
    rows (mulf A B) = fun p j => rows A p j * rows B p j := rfl

/-- The matrix every entry of which is one constant. -/
theorem rows_splat (z : Ideal φ) :
    rows (broadcast ⟨2, ![M, N]⟩ z : FVec Ideal ⟨2, ![M, N]⟩ φ) = fun _ _ => z := rfl

/-- A widening of the float format keeps every entry. -/
theorem rows_extf (A : FVec Ideal ⟨2, ![M, N]⟩ ψ) (h : ψ.bits < φ.bits) :
    rows (extf φ A h : FVec Ideal ⟨2, ![M, N]⟩ φ) = rows A := rfl

/-- Entrywise tanh, row by row. -/
theorem rows_tanh (A : FVec Ideal ⟨2, ![M, N]⟩ φ) :
    rows (tanh A) = fun p j => Ideal.tanh (rows A p j) := rfl

end Cert.LibRowOps
-- ==== Proof.EdgeRow.lean ====
/-
  One edge of the message-passing layer, as a function of that edge's three feature rows and the layer's weights.

  For an edge with source row `hs`, destination row `hd` and edge row `eh` (64 entries each):
    * the edge row is updated to  0.8 * eh + 0.2 * ((hs * hd) W_ue),  the product `hs * hd` taken entrywise;
    * two small networks, each a linear map into 128 units plus a bias, a rectifier, and a second linear map into
      128 units, are applied, one to `hs` and one to the updated edge row;
    * their outputs are multiplied entrywise, mapped linearly back to 64 entries, and passed through tanh.
  Every sum is over a literal finite index type and every operation is the exact one on the extended reals. The three
  float constants (0.8, 0.2 and the rectifier's 0) are kept as the words the programs print: both programs print the
  same words, so their values are never needed.
-/
import Idealize.ShloMosaic.Lib.ValueIdx
import Idealize.ShloMosaic.PureOps.Ideal.Laws

noncomputable section

namespace Cert.EdgeRow

open Idealize.ShloMosaic

/-- The updated edge row: entry `b` is `0.8 * eh b + 0.2 * ∑ c, (hs c * hd c) * W_ue c b`. -/
def edgeUpdate (hs hd eh : Fin 64 → EReal) (Wue : Fin 64 → Fin 64 → EReal) (b : Fin 64) : EReal :=
  Ideal.ofBits .f32 0x3F4CCCCD#32 * eh b
    + Ideal.ofBits .f32 0x3E4CCCCD#32 * ∑ c : Fin 64, (hs c * hd c) * Wue c b

/-- A linear map of a 64-entry row into 128 units with a bias, a rectifier, then a linear map into 128 units:
    entry `k` is `∑ a, max (∑ b, x b * W1 b a + b1 a) 0 * W2 a k`. -/
def branch (x : Fin 64 → EReal) (W1 : Fin 64 → Fin 128 → EReal) (b1 : Fin 128 → EReal)
    (W2 : Fin 128 → Fin 128 → EReal) (k : Fin 128) : EReal :=
  ∑ a : Fin 128, max (∑ b : Fin 64, x b * W1 b a + b1 a) (Ideal.ofBits .f32 0x00000000#32) * W2 a k

/-- The edge's message row: entry `j` is the tanh of `∑ k, (node branch k * edge branch k) * W_comb k j`. -/
def message (hs hd eh : Fin 64 → EReal)
    (Wn1 : Fin 64 → Fin 128 → EReal) (bn1 : Fin 128 → EReal) (Wn2 : Fin 128 → Fin 128 → EReal)
    (We1 : Fin 64 → Fin 128 → EReal) (be1 : Fin 128 → EReal) (We2 : Fin 128 → Fin 128 → EReal)
    (Wc : Fin 128 → Fin 64 → EReal) (Wue : Fin 64 → Fin 64 → EReal) (j : Fin 64) : EReal :=
  Ideal.tanh (∑ k : Fin 128,
    (branch hs Wn1 bn1 Wn2 k * branch (edgeUpdate hs hd eh Wue) We1 be1 We2 k) * Wc k j)

end Cert.EdgeRow

end
-- ==== Proof.KernelRow.lean ====
/-
  What the kernel stores for one block of 16000 edges, read row by row.

  The body loads the block's source rows, destination rows and edge rows and the eight weight arrays whole, and stores
  one [16000, 64] value. Read at Ideal, where a change of float format keeps every entry and a matrix product into the
  zero accumulator is the plain sum over the shared axis, row `p` of the stored value depends only on row `p` of the
  three feature blocks, and is the edge's message row of `Cert.EdgeRow`: the node branch applied to the source row, the
  edge branch applied to the updated edge row, their entrywise product mapped back to 64 entries, then tanh.
  The value is printed in three pieces (the node branch; the first linear map of the edge branch; the rest), and each is
  rewritten from the inside out by the facts about a matrix seen by its rows.
-/
import proofs.«110317_j29609504538902_1_alg».proof.Proof.Gen.KernelIdeal.Skeleton
import proofs.«110317_j29609504538902_1_alg».proof.Proof.LibDense
import proofs.«110317_j29609504538902_1_alg».proof.Proof.LibRowOps
import proofs.«110317_j29609504538902_1_alg».proof.Proof.EdgeRow

noncomputable section

namespace Cert.KernelRow

open Idealize.ShloMosaic Idealize.ShloMosaic.ValueIdx Cert.KernelIdeal Cert.KernelIdeal.Gen Cert.LibDense Cert.LibRowOps

/-- The node branch of a block: row `p` is the branch of `Cert.EdgeRow` applied to source row `p`. -/
theorem nodeBranch_rows (x0 : Vec Ideal S16000x64 .bf16) (x3 : Vec Ideal S64x128 .bf16) (x4 : Vec Ideal S1x128 .f32)
    (x5 : Vec Ideal S128x128 .bf16) :
    rows (k0_pay3 (F := Ideal) x0 x3 x4 x5)
      = fun p k => Cert.EdgeRow.branch (rows x0 p) (rows x3) (rows x4 0) (rows x5) k := by
  unfold k0_pay3 k0_pay2
  dsimp only
  rw [rows_matmul _ rfl rfl rfl rfl rfl rfl, rows_truncf, rows_maximumf_splat, rows_addf_rowBias,
    rows_matmul _ rfl rfl rfl rfl rfl rfl]
  simp only [rows_shapeCast_self]
  rfl

/-- The first linear map of the edge branch on a block: row `p` is the updated edge row `p` times `W_edge1`. -/
theorem edgeLinear_rows (x0 x1 x2 : Vec Ideal S16000x64 .bf16) (x10 : Vec Ideal S64x64 .bf16)
    (x6 : Vec Ideal S64x128 .bf16) :
    rows (k0_pay4 (F := Ideal) x0 x1 x2 x10 x6)
      = fun p a => ∑ b : Fin 64, Cert.EdgeRow.edgeUpdate (rows x0 p) (rows x1 p) (rows x2 p) (rows x10) b * rows x6 b a := by
  unfold k0_pay4 k0_pay2
  dsimp only
  simp only [shapeCast_self]
  rw [rows_matmul _ rfl rfl rfl rfl rfl rfl, rows_truncf, rows_addf, rows_mulf, rows_mulf, rows_splat, rows_splat,
    rows_extf, rows_matmul _ rfl rfl rfl rfl rfl rfl, rows_truncf, rows_mulf, rows_extf, rows_extf]
  rfl

/-- The stored value from the two pieces it is given: the node branch's output `u`, and the edge branch's first
    linear map `v`, to which the bias, the rectifier and the second linear map are still applied. -/
theorem stored_rows (u v : FVec Ideal S16000x128 .f32) (x7 : Vec Ideal S1x128 .f32) (x8 : Vec Ideal S128x128 .bf16)
    (x9 : Vec Ideal S128x64 .bf16) :
    rows (k0_pay1 (F := Ideal) u v x7 x8 x9)
      = fun p j => Ideal.tanh (∑ k : Fin 128,
          (rows u p k * ∑ a : Fin 128, max (rows v p a + rows x7 0 a) (Ideal.ofBits .f32 0x00000000#32) * rows x8 a k)
            * rows x9 k j) := by
  unfold k0_pay1
  dsimp only
  simp only [shapeCast_self]
  rw [rows_tanh, rows_matmul _ rfl rfl rfl rfl rfl rfl, rows_truncf, rows_mulf,
    rows_matmul _ rfl rfl rfl rfl rfl rfl, rows_truncf, rows_maximumf_splat, rows_addf_rowBias]
  rfl

/-- Row `p` of what the body stores is the message row of the edge whose rows are row `p` of the three feature
    blocks. -/
theorem payload_rows (x0 x1 x2 : Vec Ideal S16000x64 .bf16) (x3 : Vec Ideal S64x128 .bf16) (x4 : Vec Ideal S1x128 .f32)
    (x5 : Vec Ideal S128x128 .bf16) (x6 : Vec Ideal S64x128 .bf16) (x7 : Vec Ideal S1x128 .f32)
    (x8 : Vec Ideal S128x128 .bf16) (x9 : Vec Ideal S128x64 .bf16) (x10 : Vec Ideal S64x64 .bf16) :
    rows (k0_pay1 (F := Ideal) (k0_pay3 x0 x3 x4 x5) (k0_pay4 x0 x1 x2 x10 x6) x7 x8 x9)
      = fun p j => Cert.EdgeRow.message (rows x0 p) (rows x1 p) (rows x2 p)
          (rows x3) (rows x4 0) (rows x5) (rows x6) (rows x7 0) (rows x8) (rows x9) (rows x10) j := by
  rw [stored_rows, nodeBranch_rows, edgeLinear_rows]
  rfl

end Cert.KernelRow

end
-- ==== Proof.BlockReads.lean ====
/-
  Which part of its array each input window stages at a grid point.

  The kernel's grid has 50 points along the edges. At point `t` the three feature windows (the gathered source rows, the
  gathered destination rows, the edge features) stage rows `16000 t … 16000 t + 15999` of their [800000, 64] arrays, all 64
  columns; the eight weight windows stage their whole array at every point. Each fact below reads one window's block
  by its rows: a block's coordinate is always the block index times the block's extent plus the coordinate inside
  the block, and the block indices are decided once over the grid.
-/
import proofs.«110317_j29609504538902_1_alg».proof.Proof.Gen.KernelIdeal.Frame
import proofs.«110317_j29609504538902_1_alg».proof.Proof.LibDense
import Idealize.ShloMosaic.Lib.Pipeline.Value

set_option maxRecDepth 16384

noncomputable section

namespace Cert.BlockReads

open Idealize.ShloMosaic Idealize.ShloMosaic.TcCoe Idealize.ShloMosaic.ValueIdx Idealize.SL.Sem
open Cert.KernelIdeal Cert.KernelIdeal.Gen Cert.LibDense

variable (m : (ℓ : Loc nD τ sig) → Buf (Elt Ideal) ℓ)

theorem source_index : ∀ t : Fin cfg0.N, win0_0.index t (0 : Fin 2) = t.val ∧ win0_0.index t (1 : Fin 2) = 0 :=
  (by decide +kernel : ∀ t : Fin grid0.N, _)
/-- Row `p` of the block of the gathered source rows staged at point `t` is row `16000 t + p` of that array. -/
theorem source_rows (c : Dev nD) (t : Fin cfg0.N) (p : Fin 16000) (r : Fin 800000) (hr : r.val = t.val * 16000 + p.val) :
    rows (iblk m c 0 t) p = rows (V m c main_v14) r := by
  obtain ⟨e, e'⟩ := source_index t
  funext b
  show V m c main_v14 (((cfg0.win 0).blk t).view.emb (ix2 p b)) = V m c main_v14 (ix2 r b)
  refine congrArg _ (funext fun a => Fin.ext ?_)
  match a with
  | ⟨0, _⟩ => show win0_0.index t (0 : Fin 2) * 16000 + 1 * p.val = r.val; omega
  | ⟨1, _⟩ => show win0_0.index t (1 : Fin 2) * 64 + 1 * b.val = b.val; omega

theorem dest_index : ∀ t : Fin cfg0.N, win0_1.index t (0 : Fin 2) = t.val ∧ win0_1.index t (1 : Fin 2) = 0 :=
  (by decide +kernel : ∀ t : Fin grid0.N, _)
/-- Row `p` of the block of the gathered destination rows staged at point `t` is row `16000 t + p` of that array. -/
theorem dest_rows (c : Dev nD) (t : Fin cfg0.N) (p : Fin 16000) (r : Fin 800000) (hr : r.val = t.val * 16000 + p.val) :
    rows (iblk m c 1 t) p = rows (V m c main_v15) r := by
  obtain ⟨e, e'⟩ := dest_index t
  funext b
  show V m c main_v15 (((cfg0.win 1).blk t).view.emb (ix2 p b)) = V m c main_v15 (ix2 r b)
  refine congrArg _ (funext fun a => Fin.ext ?_)
  match a with
  | ⟨0, _⟩ => show win0_1.index t (0 : Fin 2) * 16000 + 1 * p.val = r.val; omega
  | ⟨1, _⟩ => show win0_1.index t (1 : Fin 2) * 64 + 1 * b.val = b.val; omega

theorem edge_index : ∀ t : Fin cfg0.N, win0_2.index t (0 : Fin 2) = t.val ∧ win0_2.index t (1 : Fin 2) = 0 :=
  (by decide +kernel : ∀ t : Fin grid0.N, _)
/-- Row `p` of the block of the edge features staged at point `t` is row `16000 t + p` of that array. -/
theorem edge_rows (c : Dev nD) (t : Fin cfg0.N) (p : Fin 16000) (r : Fin 800000) (hr : r.val = t.val * 16000 + p.val) :
    rows (iblk m c 2 t) p = rows (V m c main_v16) r := by
  obtain ⟨e, e'⟩ := edge_index t
  funext b
  show V m c main_v16 (((cfg0.win 2).blk t).view.emb (ix2 p b)) = V m c main_v16 (ix2 r b)
  refine congrArg _ (funext fun a => Fin.ext ?_)
  match a with
  | ⟨0, _⟩ => show win0_2.index t (0 : Fin 2) * 16000 + 1 * p.val = r.val; omega
  | ⟨1, _⟩ => show win0_2.index t (1 : Fin 2) * 64 + 1 * b.val = b.val; omega

theorem nodeW1_index : ∀ t : Fin cfg0.N, win0_3.index t (0 : Fin 2) = 0 ∧ win0_3.index t (1 : Fin 2) = 0 :=
  (by decide +kernel : ∀ t : Fin grid0.N, _)
/-- The block of the node branch's first weight matrix staged at any point is the whole array. -/
theorem nodeW1_rows (c : Dev nD) (t : Fin cfg0.N) : rows (iblk m c 3 t) = rows (V m c main_v17) := by
  obtain ⟨e, e'⟩ := nodeW1_index t
  funext k b
  show V m c main_v17 (((cfg0.win 3).blk t).view.emb (ix2 k b)) = V m c main_v17 (ix2 k b)
  refine congrArg _ (funext fun a => Fin.ext ?_)
  match a with
  | ⟨0, _⟩ => show win0_3.index t (0 : Fin 2) * 64 + 1 * k.val = k.val; omega
  | ⟨1, _⟩ => show win0_3.index t (1 : Fin 2) * 128 + 1 * b.val = b.val; omega

theorem nodeB1_index : ∀ t : Fin cfg0.N, win0_4.index t (0 : Fin 2) = 0 ∧ win0_4.index t (1 : Fin 2) = 0 :=
  (by decide +kernel : ∀ t : Fin grid0.N, _)
/-- The block of the node branch's bias row staged at any point is the whole one-row array. -/
theorem nodeB1_row (c : Dev nD) (t : Fin cfg0.N) : rows (iblk m c 4 t) 0 = rows (V m c main_v23) 0 := by
  obtain ⟨e, e'⟩ := nodeB1_index t
  funext b
  show V m c main_v23 (((cfg0.win 4).blk t).view.emb (ix2 (0 : Fin 1) b)) = V m c main_v23 (ix2 (0 : Fin 1) b)
  refine congrArg _ (funext fun a => Fin.ext ?_)
  match a with
  | ⟨0, _⟩ => show win0_4.index t (0 : Fin 2) * 1 + 1 * (0 : Fin 1).val = (0 : Fin 1).val; omega
  | ⟨1, _⟩ => show win0_4.index t (1 : Fin 2) * 128 + 1 * b.val = b.val; omega

theorem nodeW2_index : ∀ t : Fin cfg0.N, win0_5.index t (0 : Fin 2) = 0 ∧ win0_5.index t (1 : Fin 2) = 0 :=
  (by decide +kernel : ∀ t : Fin grid0.N, _)
/-- The block of the node branch's second weight matrix staged at any point is the whole array. -/
theorem nodeW2_rows (c : Dev nD) (t : Fin cfg0.N) : rows (iblk m c 5 t) = rows (V m c main_v18) := by
  obtain ⟨e, e'⟩ := nodeW2_index t
  funext k b
  show V m c main_v18 (((cfg0.win 5).blk t).view.emb (ix2 k b)) = V m c main_v18 (ix2 k b)
  refine congrArg _ (funext fun a => Fin.ext ?_)
  match a with
  | ⟨0, _⟩ => show win0_5.index t (0 : Fin 2) * 128 + 1 * k.val = k.val; omega
  | ⟨1, _⟩ => show win0_5.index t (1 : Fin 2) * 128 + 1 * b.val = b.val; omega

theorem edgeW1_index : ∀ t : Fin cfg0.N, win0_6.index t (0 : Fin 2) = 0 ∧ win0_6.index t (1 : Fin 2) = 0 :=
  (by decide +kernel : ∀ t : Fin grid0.N, _)
/-- The block of the edge branch's first weight matrix staged at any point is the whole array. -/
theorem edgeW1_rows (c : Dev nD) (t : Fin cfg0.N) : rows (iblk m c 6 t) = rows (V m c main_v19) := by
  obtain ⟨e, e'⟩ := edgeW1_index t
  funext k b
  show V m c main_v19 (((cfg0.win 6).blk t).view.emb (ix2 k b)) = V m c main_v19 (ix2 k b)
  refine congrArg _ (funext fun a => Fin.ext ?_)
  match a with
  | ⟨0, _⟩ => show win0_6.index t (0 : Fin 2) * 64 + 1 * k.val = k.val; omega
  | ⟨1, _⟩ => show win0_6.index t (1 : Fin 2) * 128 + 1 * b.val = b.val; omega

theorem edgeB1_index : ∀ t : Fin cfg0.N, win0_7.index t (0 : Fin 2) = 0 ∧ win0_7.index t (1 : Fin 2) = 0 :=
  (by decide +kernel : ∀ t : Fin grid0.N, _)
/-- The block of the edge branch's bias row staged at any point is the whole one-row array. -/
theorem edgeB1_row (c : Dev nD) (t : Fin cfg0.N) : rows (iblk m c 7 t) 0 = rows (V m c main_v24) 0 := by
  obtain ⟨e, e'⟩ := edgeB1_index t
  funext b
  show V m c main_v24 (((cfg0.win 7).blk t).view.emb (ix2 (0 : Fin 1) b)) = V m c main_v24 (ix2 (0 : Fin 1) b)
  refine congrArg _ (funext fun a => Fin.ext ?_)
  match a with
  | ⟨0, _⟩ => show win0_7.index t (0 : Fin 2) * 1 + 1 * (0 : Fin 1).val = (0 : Fin 1).val; omega
  | ⟨1, _⟩ => show win0_7.index t (1 : Fin 2) * 128 + 1 * b.val = b.val; omega

theorem edgeW2_index : ∀ t : Fin cfg0.N, win0_8.index t (0 : Fin 2) = 0 ∧ win0_8.index t (1 : Fin 2) = 0 :=
  (by decide +kernel : ∀ t : Fin grid0.N, _)
/-- The block of the edge branch's second weight matrix staged at any point is the whole array. -/
theorem edgeW2_rows (c : Dev nD) (t : Fin cfg0.N) : rows (iblk m c 8 t) = rows (V m c main_v20) := by
  obtain ⟨e, e'⟩ := edgeW2_index t
  funext k b
  show V m c main_v20 (((cfg0.win 8).blk t).view.emb (ix2 k b)) = V m c main_v20 (ix2 k b)
  refine congrArg _ (funext fun a => Fin.ext ?_)
  match a with
  | ⟨0, _⟩ => show win0_8.index t (0 : Fin 2) * 128 + 1 * k.val = k.val; omega
  | ⟨1, _⟩ => show win0_8.index t (1 : Fin 2) * 128 + 1 * b.val = b.val; omega

theorem combW_index : ∀ t : Fin cfg0.N, win0_9.index t (0 : Fin 2) = 0 ∧ win0_9.index t (1 : Fin 2) = 0 :=
  (by decide +kernel : ∀ t : Fin grid0.N, _)
/-- The block of the combining weight matrix staged at any point is the whole array. -/
theorem combW_rows (c : Dev nD) (t : Fin cfg0.N) : rows (iblk m c 9 t) = rows (V m c main_v21) := by
  obtain ⟨e, e'⟩ := combW_index t
  funext k b
  show V m c main_v21 (((cfg0.win 9).blk t).view.emb (ix2 k b)) = V m c main_v21 (ix2 k b)
  refine congrArg _ (funext fun a => Fin.ext ?_)
  match a with
  | ⟨0, _⟩ => show win0_9.index t (0 : Fin 2) * 128 + 1 * k.val = k.val; omega
  | ⟨1, _⟩ => show win0_9.index t (1 : Fin 2) * 64 + 1 * b.val = b.val; omega

theorem updW_index : ∀ t : Fin cfg0.N, win0_10.index t (0 : Fin 2) = 0 ∧ win0_10.index t (1 : Fin 2) = 0 :=
  (by decide +kernel : ∀ t : Fin grid0.N, _)
/-- The block of the edge update's weight matrix staged at any point is the whole array. -/
theorem updW_rows (c : Dev nD) (t : Fin cfg0.N) : rows (iblk m c 10 t) = rows (V m c main_v22) := by
  obtain ⟨e, e'⟩ := updW_index t
  funext k b
  show V m c main_v22 (((cfg0.win 10).blk t).view.emb (ix2 k b)) = V m c main_v22 (ix2 k b)
  refine congrArg _ (funext fun a => Fin.ext ?_)
  match a with
  | ⟨0, _⟩ => show win0_10.index t (0 : Fin 2) * 64 + 1 * k.val = k.val; omega
  | ⟨1, _⟩ => show win0_10.index t (1 : Fin 2) * 64 + 1 * b.val = b.val; omega

/-- The output window's block at point `t` is block `t` along the edges, all 64 columns. -/
theorem out_index : ∀ t : Fin cfg0.N, win0_11.index t (0 : Fin 2) = t.val ∧ win0_11.index t (1 : Fin 2) = 0 :=
  (by decide +kernel : ∀ t : Fin grid0.N, _)

end Cert.BlockReads

end
-- ==== Proof.MessageArray.lean ====
/-
  From what each grid point writes back to the whole message array.

  The kernel runs over 50 grid points; point `t` stages rows `16000 t … 16000 t + 15999` of the three feature arrays
  (the gathered source rows, the gathered destination rows, the edge features), the eight weight arrays whole, and
  writes its [16000, 64] result back to the same rows of the message array. Row `p` of the result is the message row
  of the edge whose feature rows are row `p` of the staged blocks (`Cert.KernelRow.payload_rows`), that is, of edge
  `16000 t + p` (`Cert.BlockReads`). So every point writes back a block of ONE function of the arrays as the region
  finds them — entry `(e, j)` is entry `j` of edge `e`'s message row — and, the 50 blocks
  covering all 800000 rows, the message array ends holding that function everywhere.
-/
import proofs.«110317_j29609504538902_1_alg».proof.Proof.Gen.KernelIdeal.Frame
import proofs.«110317_j29609504538902_1_alg».proof.Proof.KernelRow
import proofs.«110317_j29609504538902_1_alg».proof.Proof.BlockReads
import Idealize.ShloMosaic.Lib.Pipeline.Value

set_option maxRecDepth 16384

noncomputable section

namespace Cert.MessageArray

open Idealize.ShloMosaic Idealize.ShloMosaic.TcCoe Idealize.ShloMosaic.ValueIdx Idealize.SL.Sem
open Cert.KernelIdeal Cert.KernelIdeal.Gen Cert.LibDense
open Idealize.ShloMosaic.Pipeline (Dat)

/-- The message array as one function of the feature arrays and the weights: entry `(e, j)` is entry `j` of the
    message row of the edge whose feature rows are row `e` of the three feature arrays. -/
def messages (hs hd eh : S800000x64.Idx → EReal) (Wn1 : S64x128.Idx → EReal) (bn1 : S1x128.Idx → EReal)
    (Wn2 : S128x128.Idx → EReal) (We1 : S64x128.Idx → EReal) (be1 : S1x128.Idx → EReal) (We2 : S128x128.Idx → EReal)
    (Wc : S128x64.Idx → EReal) (Wue : S64x64.Idx → EReal) : S800000x64.Idx → EReal := fun i =>
  Cert.EdgeRow.message (rows hs (i 0)) (rows hd (i 0)) (rows eh (i 0)) (rows Wn1) (rows bn1 0) (rows Wn2)
    (rows We1) (rows be1 0) (rows We2) (rows Wc) (rows Wue) (i 1)

variable (m : (ℓ : Loc nD τ sig) → Buf (Elt Ideal) ℓ)

/-- That function of the eleven arrays the kernel stages, as the region finds them. -/
def staged (c : Dev nD) : S800000x64.Idx → EReal :=
  messages (V m c main_v14) (V m c main_v15) (V m c main_v16) (V m c main_v17) (V m c main_v23) (V m c main_v18)
    (V m c main_v19) (V m c main_v24) (V m c main_v20) (V m c main_v21) (V m c main_v22)

theorem hz : (![0, 0] : Fin 2 → Nat) = fun _ => 0 := funext fun a => by fin_cases a <;> rfl

/-- What point `t` writes back is block `t` of the message function of the staged arrays. -/
theorem wrote_back (c : Dev nD) (t : Fin cfg0.N) :
    (dats m 0 c).flushed 11 t = ((cfg0.win 11).blk t).view.read (Elt Ideal) (staged m c) := by
  show (cfg0.win 11).cut (grid0.coords t) ((dats m 0 c).after 11 t) = _
  rw [after0_11]
  unfold out0_11
  rw [View.canon_unit_zero hz]
  simp only [View.ld_unit_zero (S := S16000x64) hz, View.ld_unit_zero (S := S64x128) hz, View.ld_unit_zero (S := S1x128) hz,
    View.ld_unit_zero (S := S128x128) hz, View.ld_unit_zero (S := S128x64) hz, View.ld_unit_zero (S := S64x64) hz]
  obtain ⟨e11, e11'⟩ := Cert.BlockReads.out_index t
  funext y
  have hy := eq_ix2 y
  refine (congrArg _ hy).trans ((congrFun (congrFun (Cert.KernelRow.payload_rows (iblk m c 0 t) (iblk m c 1 t) (iblk m c 2 t) (iblk m c 3 t) (iblk m c 4 t) (iblk m c 5 t) (iblk m c 6 t) (iblk m c 7 t) (iblk m c 8 t) (iblk m c 9 t) (iblk m c 10 t)) (y 0)) (y 1)).trans ?_)
  have hrow : ((((cfg0.win 11).blk t).view.emb y) 0).val = t.val * 16000 + (y 0).val := by
    show win0_11.index t (0 : Fin 2) * 16000 + 1 * (y 0).val = _
    omega
  have hcol : y 1 = (((cfg0.win 11).blk t).view.emb y) 1 := Fin.ext (by
    show (y 1).val = win0_11.index t (1 : Fin 2) * 64 + 1 * (y 1).val
    omega)
  show Cert.EdgeRow.message _ _ _ _ _ _ _ _ _ _ _ (y 1) = staged m c (((cfg0.win 11).blk t).view.emb y)
  unfold staged messages
  rw [Cert.BlockReads.source_rows m c t (y 0) _ hrow, Cert.BlockReads.dest_rows m c t (y 0) _ hrow,
    Cert.BlockReads.edge_rows m c t (y 0) _ hrow, Cert.BlockReads.nodeW1_rows m c t, Cert.BlockReads.nodeB1_row m c t,
    Cert.BlockReads.nodeW2_rows m c t, Cert.BlockReads.edgeW1_rows m c t, Cert.BlockReads.edgeB1_row m c t,
    Cert.BlockReads.edgeW2_rows m c t, Cert.BlockReads.combW_rows m c t, Cert.BlockReads.updW_rows m c t, ← hcol]

/-- An index of the message array is in point `t`'s block iff each coordinate is in the block's range on its axis. -/
theorem mem_block (t : Fin cfg0.N) (i : S800000x64.Idx) :
    i ∈ ((cfg0.win 11).blk t).view.set ↔ ∀ a : Fin 2, win0_11.index t a * S16000x64.size a ≤ (i a).val
      ∧ (i a).val < win0_11.index t a * S16000x64.size a + S16000x64.size a := by
  show i ∈ ((View.whole main_v25).slice (win0_11.rect t)).set ↔ _
  rw [View.set_slice_whole, Rect.mem_set_unit]
  exact Iff.rfl

/-- The 50 blocks cover the message array: row `r` is in the block of point `r / 16000`. -/
theorem covered (i : S800000x64.Idx) :
    ∃ t : Fin cfg0.N, (cfg0.win 11).flush t = true ∧ i ∈ ((cfg0.win 11).blk t).view.set := by
  have hi0 : (i 0).val < 800000 := (i 0).isLt
  have hi1 : (i 1).val < 64 := (i 1).isLt
  obtain ⟨t0, ht0⟩ : ∃ t0 : Fin cfg0.N, t0.val = (i 0).val / 16000 :=
    ⟨⟨(i 0).val / 16000, lt_of_lt_of_eq (by omega : (i 0).val / 16000 < 50) N_0.symm⟩, rfl⟩
  obtain ⟨e, e'⟩ := Cert.BlockReads.out_index t0
  refine ⟨t0, flush0_11 t0, ?_⟩
  rw [mem_block]
  intro a
  match a with
  | ⟨0, _⟩ =>
    show win0_11.index t0 (0 : Fin 2) * 16000 ≤ (i 0).val ∧ (i 0).val < win0_11.index t0 (0 : Fin 2) * 16000 + 16000
    omega
  | ⟨1, _⟩ =>
    show win0_11.index t0 (1 : Fin 2) * 64 ≤ (i 1).val ∧ (i 1).val < win0_11.index t0 (1 : Fin 2) * 64 + 64
    omega

/-- After the region the message array holds the message function of the staged arrays, everywhere. -/
theorem final (c : Dev nD) : (dats m 0 c).arrAt 11 cfg0.N = staged m c :=
  (dats m 0 c).arrAt_eq_of_cover 11 (staged m c) (fun t _ => wrote_back m c t) (fun i => covered i)

end Cert.MessageArray

end
-- ==== Proof.StagedArrays.lean ====
/-
  What the kernel's eleven staged arrays hold when the region is entered, entry by entry.

  Before the region the program gathers the source and destination rows of the node features by the two index arrays
  (a negative index first wrapped by adding the number of nodes), changes the float format of those two arrays, of the
  edge features and of the six weight matrices — which at Ideal keeps every entry —, and reshapes the two bias vectors
  [128] to one-row arrays [1, 128]. So each staged array, read at an entry, is the corresponding argument (or gathered
  array) read at the same entry, and a staged bias at `(0, a)` is the bias at `a`. The two gathered arrays are stated as
  the reference's own gathered arrays of the same arguments: the index arithmetic and the gather are, operation by
  operation, the ones the reference performs.
-/
import proofs.«110317_j29609504538902_1_alg».proof.Proof.Gen.KernelIdeal.Frame
import proofs.«110317_j29609504538902_1_alg».proof.Proof.Gen.ReferenceIdeal.Read
import proofs.«110317_j29609504538902_1_alg».proof.Proof.LibDense
import Idealize.ShloMosaic.Lib.StableHlo.Run
import Idealize.ShloMosaic.Lib.ValueLayout
import Idealize.ShloMosaic.PureOps.Ideal.Laws

set_option maxRecDepth 16384

noncomputable section

namespace Cert.StagedArrays

open Idealize.ShloMosaic Idealize.ShloMosaic.TcCoe Idealize.ShloMosaic.ValueIdx Idealize.SL.Sem Idealize.ShloMosaic.StableHlo
open Cert.KernelIdeal Cert.KernelIdeal.Gen Cert.LibDense

variable (m : (ℓ : Loc nD τ sig) → Buf (Elt Ideal) ℓ) (c : Dev nD)

/-- The staged source rows are the reference's gathered source rows of the same node features and source indices. -/
theorem source_entry (e : Fin 800000) (b : Fin 64) :
    rows (V m c main_v14) e b
      = Cert.ReferenceIdeal.Read.val_main_v6 (F := Ideal) (m ((c : Thread nD τ).loc main_arg0)) (m ((c : Thread nD τ).loc main_arg10)) (ix2 e b) := by
  show StableHlo.after hostOps0 (fun b => m (c, b)) (Proc.devRef .tc main_v14) (ix2 e b) = _
  after_results
  rfl

/-- The staged destination rows are the reference's gathered destination rows. -/
theorem dest_entry (e : Fin 800000) (b : Fin 64) :
    rows (V m c main_v15) e b
      = Cert.ReferenceIdeal.Read.val_main_v13 (F := Ideal) (m ((c : Thread nD τ).loc main_arg0)) (m ((c : Thread nD τ).loc main_arg11)) (ix2 e b) := by
  show StableHlo.after hostOps0 (fun b => m (c, b)) (Proc.devRef .tc main_v15) (ix2 e b) = _
  after_results
  rfl

/-- The staged edge features are the edge features. -/
theorem edge_entry (e : Fin 800000) (b : Fin 64) : rows (V m c main_v16) e b = (m ((c : Thread nD τ).loc main_arg1)) (ix2 e b) := by
  show StableHlo.after hostOps0 (fun b => m (c, b)) (Proc.devRef .tc main_v16) (ix2 e b) = _
  after_results
  rfl

/-- The staged copy of the node branch's first weight matrix is that matrix. -/
theorem nodeW1_entry (k : Fin 64) (a : Fin 128) : rows (V m c main_v17) k a = (m ((c : Thread nD τ).loc main_arg2)) (ix2 k a) := by
  show StableHlo.after hostOps0 (fun b => m (c, b)) (Proc.devRef .tc main_v17) (ix2 k a) = _
  after_results
  rfl

/-- The staged copy of the node branch's second weight matrix is that matrix. -/
theorem nodeW2_entry (k : Fin 128) (a : Fin 128) : rows (V m c main_v18) k a = (m ((c : Thread nD τ).loc main_arg4)) (ix2 k a) := by
  show StableHlo.after hostOps0 (fun b => m (c, b)) (Proc.devRef .tc main_v18) (ix2 k a) = _
  after_results
  rfl

/-- The staged copy of the edge branch's first weight matrix is that matrix. -/
theorem edgeW1_entry (k : Fin 64) (a : Fin 128) : rows (V m c main_v19) k a = (m ((c : Thread nD τ).loc main_arg5)) (ix2 k a) := by
  show StableHlo.after hostOps0 (fun b => m (c, b)) (Proc.devRef .tc main_v19) (ix2 k a) = _
  after_results
  rfl

/-- The staged copy of the edge branch's second weight matrix is that matrix. -/
theorem edgeW2_entry (k : Fin 128) (a : Fin 128) : rows (V m c main_v20) k a = (m ((c : Thread nD τ).loc main_arg7)) (ix2 k a) := by
  show StableHlo.after hostOps0 (fun b => m (c, b)) (Proc.devRef .tc main_v20) (ix2 k a) = _
  after_results
  rfl

/-- The staged copy of the combining weight matrix is that matrix. -/
theorem combW_entry (k : Fin 128) (a : Fin 64) : rows (V m c main_v21) k a = (m ((c : Thread nD τ).loc main_arg8)) (ix2 k a) := by
  show StableHlo.after hostOps0 (fun b => m (c, b)) (Proc.devRef .tc main_v21) (ix2 k a) = _
  after_results
  rfl

/-- The staged copy of the edge update's weight matrix is that matrix. -/
theorem updW_entry (k : Fin 64) (a : Fin 64) : rows (V m c main_v22) k a = (m ((c : Thread nD τ).loc main_arg9)) (ix2 k a) := by
  show StableHlo.after hostOps0 (fun b => m (c, b)) (Proc.devRef .tc main_v22) (ix2 k a) = _
  after_results
  rfl

/-- The node branch's bias, staged as a one-row array, read at `(0, a)` is the bias at `a`. -/
theorem nodeB1_entry (a : Fin 128) : rows (V m c main_v23) 0 a = (m ((c : Thread nD τ).loc main_arg3)) (ix1 a) := by
  show StableHlo.after hostOps0 (fun b => m (c, b)) (Proc.devRef .tc main_v23) (ix2 (0 : Fin 1) a) = _
  after_results
  exact shapeCast_a_1a_apply _ _ 0 a

/-- The edge branch's bias likewise. -/
theorem edgeB1_entry (a : Fin 128) : rows (V m c main_v24) 0 a = (m ((c : Thread nD τ).loc main_arg6)) (ix1 a) := by
  show StableHlo.after hostOps0 (fun b => m (c, b)) (Proc.devRef .tc main_v24) (ix2 (0 : Fin 1) a) = _
  after_results
  exact shapeCast_a_1a_apply _ _ 0 a

end Cert.StagedArrays

end
-- ==== Proof.RefRow.lean ====
/-
  What the reference computes for one edge, read at an entry.

  The reference applies the same layer to whole arrays: the gathered source and destination rows and the edge rows are
  [800000, 64] arrays, each product is a contraction over the shared axis of a whole array with a weight matrix, each
  bias is a row added to every row, and the rectifier and tanh act entrywise. So entry `(e, j)` of its message array
  depends only on row `e` of the three feature arrays, and is entry `j` of the edge's message row of `Cert.EdgeRow`.
  Each operation is read at an index by the generated read-at-an-index lemmas; what is added here is that the index
  each contraction reads its operands at is the evident pair (row of the entry, summation index) and (summation
  index, column of the entry), and that the bias row is read at the entry's column.
-/
import proofs.«110317_j29609504538902_1_alg».proof.Proof.Gen.ReferenceIdeal.Read
import proofs.«110317_j29609504538902_1_alg».proof.Proof.LibDense
import proofs.«110317_j29609504538902_1_alg».proof.Proof.EdgeRow

noncomputable section

namespace Cert.RefRow

open Idealize.ShloMosaic Idealize.ShloMosaic.ValueIdx Cert.ReferenceIdeal Cert.ReferenceIdeal.Read Cert.LibDense

/-! ## Where each contraction reads its operands -/

theorem lidx17 (i : S800000x64.Idx) (k : Fin 64) : lidx_main_v17 i k = (ix2 (i 0) k : S800000x64.Idx) :=
  funext fun a => Fin.ext (by match a with | ⟨0, _⟩ => rfl | ⟨1, _⟩ => rfl)
theorem ridx17 (i : S800000x64.Idx) (k : Fin 64) : ridx_main_v17 i k = (ix2 k (i 1) : S64x64.Idx) :=
  funext fun a => Fin.ext (by match a with | ⟨0, _⟩ => rfl | ⟨1, _⟩ => rfl)

theorem lidx21 (i : S800000x128.Idx) (k : Fin 64) : lidx_main_v21 i k = (ix2 (i 0) k : S800000x64.Idx) :=
  funext fun a => Fin.ext (by match a with | ⟨0, _⟩ => rfl | ⟨1, _⟩ => rfl)
theorem ridx21 (i : S800000x128.Idx) (k : Fin 64) : ridx_main_v21 i k = (ix2 k (i 1) : S64x128.Idx) :=
  funext fun a => Fin.ext (by match a with | ⟨0, _⟩ => rfl | ⟨1, _⟩ => rfl)

theorem lidx26 (i : S800000x128.Idx) (k : Fin 128) : lidx_main_v26 i k = (ix2 (i 0) k : S800000x128.Idx) :=
  funext fun a => Fin.ext (by match a with | ⟨0, _⟩ => rfl | ⟨1, _⟩ => rfl)
theorem ridx26 (i : S800000x128.Idx) (k : Fin 128) : ridx_main_v26 i k = (ix2 k (i 1) : S128x128.Idx) :=
  funext fun a => Fin.ext (by match a with | ⟨0, _⟩ => rfl | ⟨1, _⟩ => rfl)

theorem lidx27 (i : S800000x128.Idx) (k : Fin 64) : lidx_main_v27 i k = (ix2 (i 0) k : S800000x64.Idx) :=
  funext fun a => Fin.ext (by match a with | ⟨0, _⟩ => rfl | ⟨1, _⟩ => rfl)
theorem ridx27 (i : S800000x128.Idx) (k : Fin 64) : ridx_main_v27 i k = (ix2 k (i 1) : S64x128.Idx) :=
  funext fun a => Fin.ext (by match a with | ⟨0, _⟩ => rfl | ⟨1, _⟩ => rfl)

theorem lidx32 (i : S800000x128.Idx) (k : Fin 128) : lidx_main_v32 i k = (ix2 (i 0) k : S800000x128.Idx) :=
  funext fun a => Fin.ext (by match a with | ⟨0, _⟩ => rfl | ⟨1, _⟩ => rfl)
theorem ridx32 (i : S800000x128.Idx) (k : Fin 128) : ridx_main_v32 i k = (ix2 k (i 1) : S128x128.Idx) :=
  funext fun a => Fin.ext (by match a with | ⟨0, _⟩ => rfl | ⟨1, _⟩ => rfl)

theorem lidx34 (i : S800000x64.Idx) (k : Fin 128) : lidx_main_v34 i k = (ix2 (i 0) k : S800000x128.Idx) :=
  funext fun a => Fin.ext (by match a with | ⟨0, _⟩ => rfl | ⟨1, _⟩ => rfl)
theorem ridx34 (i : S800000x64.Idx) (k : Fin 128) : ridx_main_v34 i k = (ix2 k (i 1) : S128x64.Idx) :=
  funext fun a => Fin.ext (by match a with | ⟨0, _⟩ => rfl | ⟨1, _⟩ => rfl)

/-- The node branch's bias, broadcast to a row and then to every row, is read at the entry's column. -/
theorem bias23 (i : S800000x128.Idx) : idx_main_v22 (idx_main_v23 i) = (ix1 (i 1) : S128.Idx) :=
  funext fun a => Fin.ext (by match a with | ⟨0, _⟩ => rfl)
/-- The edge branch's bias likewise. -/
theorem bias29 (i : S800000x128.Idx) : idx_main_v28 (idx_main_v29 i) = (ix1 (i 1) : S128.Idx) :=
  funext fun a => Fin.ext (by match a with | ⟨0, _⟩ => rfl)

/-! ## The message array at an entry -/

/-- Entry `(e, j)` of the reference's message array is entry `j` of the message row of the edge whose rows are row `e`
    of the gathered source rows, of the gathered destination rows and of the edge features. -/
theorem message_apply (x0 : (⟨S50000x64, .f32⟩ : BufTy).Contents (Elt Ideal)) (x1 : (⟨S800000x64, .f32⟩ : BufTy).Contents (Elt Ideal))
    (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S64x128, .f32⟩ : BufTy).Contents (Elt Ideal))
    (x6 : (⟨S128, .f32⟩ : BufTy).Contents (Elt Ideal)) (x7 : (⟨S128x128, .f32⟩ : BufTy).Contents (Elt Ideal))
    (x8 : (⟨S128x64, .f32⟩ : BufTy).Contents (Elt Ideal)) (x9 : (⟨S64x64, .f32⟩ : BufTy).Contents (Elt Ideal))
    (x10 x11 : (⟨S800000, .i32⟩ : BufTy).Contents (Elt Ideal)) (e : Fin 800000) (j : Fin 64) :
    val_main_v35 (F := Ideal) x0 x1 x2 x3 x4 x5 x6 x7 x8 x9 x10 x11 (ix2 e j)
      = Cert.EdgeRow.message (rows (val_main_v6 (F := Ideal) x0 x10) e) (rows (val_main_v13 (F := Ideal) x0 x11) e) (rows x1 e)
          (rows x2) (fun a => x3 (ix1 a)) (rows x4) (rows x5) (fun a => x6 (ix1 a)) (rows x7) (rows x8) (rows x9) j := by
  simp only [val_main_v35_apply (F := Ideal), val_main_v34_apply, val_main_v33_apply (F := Ideal),
    val_main_v26_apply, val_main_v25_apply (F := Ideal), val_main_v24_apply (F := Ideal), val_main_v21_apply,
    val_main_v23_apply (F := Ideal), val_main_v22_apply (F := Ideal),
    val_main_call0_v0_apply (F := Ideal), val_main_call0_cst_apply (F := Ideal),
    val_main_v32_apply, val_main_v31_apply (F := Ideal), val_main_v30_apply (F := Ideal), val_main_v27_apply,
    val_main_v29_apply (F := Ideal), val_main_v28_apply (F := Ideal),
    val_main_call1_v0_apply (F := Ideal), val_main_call1_cst_apply (F := Ideal),
    val_main_v20_apply (F := Ideal), val_main_v15_apply (F := Ideal), val_main_v14_apply (F := Ideal),
    val_main_cst_apply (F := Ideal), val_main_v19_apply (F := Ideal), val_main_v18_apply (F := Ideal),
    val_main_cst_3_apply (F := Ideal), val_main_v17_apply, val_main_v16_apply (F := Ideal),
    lidx17, ridx17, lidx21, ridx21, lidx26, ridx26, lidx27, ridx27, lidx32, ridx32, lidx34, ridx34, bias23, bias29,
    Ideal.hostUnary_tanh_def, Ideal.mulf_def, Ideal.addf_def, Ideal.maximumf_def, Ideal.ofBits_def]
  rfl

end Cert.RefRow

end
-- ==== Proof.Result.lean ====
/-
  The kernel's result, and that it is the reference's.

  After the region the program scatters the message array into an array of zeros, one row per node, adding row `e` of
  the messages into the row its destination index names, and adds the node features. These lines are kept as ONE
  function (`scatterToNodes`) of the node features, the destination indices and the message array; the reference ends
  with the same lines, so nothing about a scatter or a gather is ever opened. What is proved is that the two message
  arrays are equal: the kernel's is, entry `(e, j)`, entry `j` of edge `e`'s message row of the staged arrays
  (`Cert.MessageArray.final`); the reference's is the same row of its own arrays (`Cert.RefRow.message_apply`); and the
  staged arrays are, entry by entry, the reference's arrays of the same arguments (`Cert.StagedArrays`).
-/
import proofs.«110317_j29609504538902_1_alg».proof.Proof.MessageArray
import proofs.«110317_j29609504538902_1_alg».proof.Proof.StagedArrays
import proofs.«110317_j29609504538902_1_alg».proof.Proof.RefRow
import Idealize.ShloMosaic.Lib.StableHlo.Run
import Idealize.ShloMosaic.PureOps.Ideal.Laws

set_option maxRecDepth 16384

noncomputable section

namespace Cert.Result

open Idealize.ShloMosaic Idealize.ShloMosaic.TcCoe Idealize.ShloMosaic.ValueIdx Idealize.SL.Sem Idealize.ShloMosaic.StableHlo
open Cert.KernelIdeal Cert.KernelIdeal.Gen Cert.LibDense

/-- The lines after the region as one function: the messages scattered into zeros by the destination indices, adding,
    then the node features added. -/
def scatterToNodes (h : (⟨S50000x64, .f32⟩ : BufTy).Contents (Elt Ideal)) (dst : (⟨S800000, .i32⟩ : BufTy).Contents (Elt Ideal))
    (M : (⟨S800000x64, .f32⟩ : BufTy).Contents (Elt Ideal)) : (⟨S50000x64, .f32⟩ : BufTy).Contents (Elt Ideal) :=
  addf (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 dst) M) h

variable (m : (ℓ : Loc nD τ sig) → Buf (Elt Ideal) ℓ)

/-- What the lines after the region leave in the result buffer: `scatterToNodes` of the node features and destination
    indices as launched and of the message array the region left. -/
theorem tail_read (c : Dev nD) :
    Pipeline.afterTail₀ cfgs (dats m) 0 (V0 m) [hostOps1] c main_v29
      = scatterToNodes (m ((c : Thread nD τ).loc main_arg0)) (m ((c : Thread nD τ).loc main_arg11)) (Cert.MessageArray.staged m c) := by
  have e25 : (Pipeline.withArrays (cfgs 0).spec c (V0 m c) (fun w => (dats m 0 c).arrAt w (cfgs 0).N) (Proc.devRef .tc main_v25)) = Cert.MessageArray.staged m c :=
    (Pipeline.withArrays_arr spec0 launch0.win.arr_inj c _ _ 11).trans (Cert.MessageArray.final m c)
  have e11 : (Pipeline.withArrays (cfgs 0).spec c (V0 m c) (fun w => (dats m 0 c).arrAt w (cfgs 0).N) (Proc.devRef .tc main_arg11)) = m ((c : Thread nD τ).loc main_arg11) :=
    (Pipeline.withArrays_of_ne spec0 c (V0 m c) _ main_arg11 (by exact (by decide : ∀ w, Pipeline.arrRef spec0 w ≠ main_arg11))).trans (V_main_arg11 m c)
  have e0 : (Pipeline.withArrays (cfgs 0).spec c (V0 m c) (fun w => (dats m 0 c).arrAt w (cfgs 0).N) (Proc.devRef .tc main_arg0)) = m ((c : Thread nD τ).loc main_arg0) :=
    (Pipeline.withArrays_of_ne spec0 c (V0 m c) _ main_arg0 (by exact (by decide : ∀ w, Pipeline.arrRef spec0 w ≠ main_arg0))).trans (V_main_arg0 m c)
  unfold Pipeline.afterTail₀
  show StableHlo.after hostOps1 _ (Proc.devRef .tc main_v29) = _
  after_results
  rw [e25, e11, e0]
  rfl

/-- The kernel's run, read: every weakly fair execution ends with the result buffer at `scatterToNodes` of the
    arguments and of the message function of the staged arrays, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v29)
        = scatterToNodes (m ((c : Thread nD τ).loc main_arg0)) (m ((c : Thread nD τ).loc main_arg11)) (Cert.MessageArray.staged m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v29 (Pipeline.mem_restRefs_of main_v29 (by decide) (by decide))).trans (tail_read m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩) (run_main m ρ)

/-- The message function of the staged arrays is the reference's message array of the same arguments. -/
theorem staged_eq (c : Dev nD) :
    Cert.MessageArray.staged m c = Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  funext i
  have hi := eq_ix2 i
  refine Eq.symm ((congrArg _ hi).trans ((Cert.RefRow.message_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (i 0) (i 1)).trans ?_))
  show _ = Cert.EdgeRow.message (rows (V m c main_v14) (i 0)) (rows (V m c main_v15) (i 0)) (rows (V m c main_v16) (i 0))
    (rows (V m c main_v17)) (rows (V m c main_v23) 0) (rows (V m c main_v18)) (rows (V m c main_v19)) (rows (V m c main_v24) 0)
    (rows (V m c main_v20)) (rows (V m c main_v21)) (rows (V m c main_v22)) (i 1)
  rw [show rows (V m c main_v14) (i 0) = rows (Cert.ReferenceIdeal.Read.val_main_v6 (F := Ideal) (m ((c : Thread nD τ).loc main_arg0)) (m ((c : Thread nD τ).loc main_arg10))) (i 0) from funext fun b => Cert.StagedArrays.source_entry m c (i 0) b,
    show rows (V m c main_v15) (i 0) = rows (Cert.ReferenceIdeal.Read.val_main_v13 (F := Ideal) (m ((c : Thread nD τ).loc main_arg0)) (m ((c : Thread nD τ).loc main_arg11))) (i 0) from funext fun b => Cert.StagedArrays.dest_entry m c (i 0) b,
    show rows (V m c main_v16) (i 0) = rows (m ((c : Thread nD τ).loc main_arg1)) (i 0) from funext fun b => Cert.StagedArrays.edge_entry m c (i 0) b,
    show rows (V m c main_v17) = rows (m ((c : Thread nD τ).loc main_arg2)) from funext fun k => funext fun a => Cert.StagedArrays.nodeW1_entry m c k a,
    show rows (V m c main_v23) 0 = (fun a => (m ((c : Thread nD τ).loc main_arg3)) (ix1 a)) from funext fun a => Cert.StagedArrays.nodeB1_entry m c a,
    show rows (V m c main_v18) = rows (m ((c : Thread nD τ).loc main_arg4)) from funext fun k => funext fun a => Cert.StagedArrays.nodeW2_entry m c k a,
    show rows (V m c main_v19) = rows (m ((c : Thread nD τ).loc main_arg5)) from funext fun k => funext fun a => Cert.StagedArrays.edgeW1_entry m c k a,
    show rows (V m c main_v24) 0 = (fun a => (m ((c : Thread nD τ).loc main_arg6)) (ix1 a)) from funext fun a => Cert.StagedArrays.edgeB1_entry m c a,
    show rows (V m c main_v20) = rows (m ((c : Thread nD τ).loc main_arg7)) from funext fun k => funext fun a => Cert.StagedArrays.edgeW2_entry m c k a,
    show rows (V m c main_v21) = rows (m ((c : Thread nD τ).loc main_arg8)) from funext fun k => funext fun a => Cert.StagedArrays.combW_entry m c k a,
    show rows (V m c main_v22) = rows (m ((c : Thread nD τ).loc main_arg9)) from funext fun k => funext fun a => Cert.StagedArrays.updW_entry m c k a]

/-- THE BRIDGE: the reference's result of the same arguments is the kernel's. -/
theorem reference_eq (c : Dev nD) :
    Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      = scatterToNodes (m ((c : Thread nD τ).loc main_arg0)) (m ((c : Thread nD τ).loc main_arg11)) (Cert.MessageArray.staged m c) := by
  rw [staged_eq m c]
  rfl

end Cert.Result

end
-- ==== Proof.lean ====
/-
  A message-passing layer over a graph of 50000 nodes and 800000 edges: the kernel and its reference compute the same
  array of node updates on the extended reals.

  Both programs gather, for every edge, the feature rows of its source and destination nodes; compute the edge's
  message — the edge features updated to `0.8 eh + 0.2 ((hs * hd) W_ue)`, two small rectified networks applied to the
  source row and to the updated edge row, their entrywise product mapped back to 64 entries, and tanh —; add every
  message into the row of its destination node; and add the node features. They differ in how the messages are computed:
  the reference applies each operation to the whole [800000, ·] arrays, the kernel runs over 50 blocks of 16000 edges,
  in a narrower float format between the matrix products. At Ideal a change of float format keeps every entry and a
  matrix product into the zero accumulator is the plain sum over the shared axis, so both compute, at entry `(e, j)`,
  entry `j` of ONE function of edge `e`'s three feature rows and the weights (`Cert.EdgeRow.message`): the kernel's
  stored block row by row (`Cert.KernelRow`), the blocks assembled into the whole message array (`Cert.BlockReads`,
  `Cert.MessageArray`), the reference's array read at an entry (`Cert.RefRow`), and the arrays the kernel stages
  identified with the reference's (`Cert.StagedArrays`). The gathers before and the scatter after are the same lines
  in both programs and are never opened (`Cert.Result`). No sum is reordered and no factor is moved across a sum, so the
  finiteness of the inputs is not used.

  The three frames: the two kernels' are the generated frame certificates; the reference, a host program, runs by its
  generated run, whose post also keeps the arguments. The idealization rewrote no operation, so there is nothing to
  preserve.
-/
import proofs.«110317_j29609504538902_1_alg».proof.Defs
import proofs.«110317_j29609504538902_1_alg».proof.Proof.Gen.Kernel
import proofs.«110317_j29609504538902_1_alg».proof.Proof.Gen.Kernel.Skeleton
import proofs.«110317_j29609504538902_1_alg».proof.Proof.Gen.Kernel.Launch
import proofs.«110317_j29609504538902_1_alg».proof.Proof.Gen.Kernel.Points
import proofs.«110317_j29609504538902_1_alg».proof.Proof.Gen.Kernel.Frame
import proofs.«110317_j29609504538902_1_alg».proof.Proof.Gen.KernelIdeal
import proofs.«110317_j29609504538902_1_alg».proof.Proof.Gen.KernelIdeal.Skeleton
import proofs.«110317_j29609504538902_1_alg».proof.Proof.Gen.KernelIdeal.Launch
import proofs.«110317_j29609504538902_1_alg».proof.Proof.Gen.KernelIdeal.Points
import proofs.«110317_j29609504538902_1_alg».proof.Proof.Gen.KernelIdeal.Frame
import proofs.«110317_j29609504538902_1_alg».proof.Proof.Gen.ReferenceIdeal
import proofs.«110317_j29609504538902_1_alg».proof.Proof.Gen.Pre_finite_inputs
import proofs.«110317_j29609504538902_1_alg».proof.Proof.Gen.ReferenceIdeal.Run
import proofs.«110317_j29609504538902_1_alg».proof.Proof.Gen.ReferenceIdeal.Read
import Idealize.ShloMosaic.Adequacy
import Idealize.ShloMosaic.Init
import proofs.«110317_j29609504538902_1_alg».proof.Proof.Result

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the node updates `scatterToNodes` of the node
    features, the destination indices and the message array: the kernel by its run read back, the reference because its
    result, at the kernel's arguments, is that same term (`Cert.Result.reference_eq`). -/
theorem algebraic : Cert.algebraic_KernelIdeal_ReferenceIdeal := by
  intro m ρ m' ρ' _ hagree
  refine ⟨fun c => Cert.Result.scatterToNodes (m ((c.tc : Thread Cert.KernelIdeal.nD Cert.KernelIdeal.τ).loc Cert.KernelIdeal.main_arg0))
    (m ((c.tc : Thread Cert.KernelIdeal.nD Cert.KernelIdeal.τ).loc Cert.KernelIdeal.main_arg11)) (Cert.MessageArray.staged m c),
    Cert.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [a0, a1, a2, a3, a4, a5, a6, a7, a8, a9, a10, a11]
  exact (Cert.ReferenceIdeal.Read.val_main_v39_eq _ _ _ _ _ _ _ _ _ _ _ _).trans (Cert.Result.reference_eq m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
